-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1000000 : S_.BroadcastsInDim S1000000 (![] : Fin 0 → Fin S1000000.rank)
  reducesTo_S1000000_S_d0 : S1000000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg17 : FVec F S128 .f32) (main_arg18 : FVec F S128x128 .f32) (main_arg19 : FVec F S128 .f32) (main_v33 : IVec S_ 1) : IVec S_ 1 :=
  let main_v34 : FVec F S128 .f32 := Host.absf main_arg17
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg18
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg19
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg12 : FVec F S1000000 .f32) (main_arg15 : FVec F S1000000 .f32) (main_arg16 : FVec F S128x128 .f32) (main_arg17 : FVec F S128 .f32) (main_arg18 : FVec F S128x128 .f32) (main_arg19 : FVec F S128 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1000000 .f32 := Host.absf main_arg12
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S1000000 .f32 := Host.absf main_arg15
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S128x128 .f32 := Host.absf main_arg16
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg17 main_arg18 main_arg19 main_v33

def fn {F : FTy → Type} [FloatOps F] (main_arg0 : FVec F S100000x128 .f32) (main_arg1 : IVec S1600000 32) (main_arg2 : IVec S1600000 32) (main_arg3 : FVec F S1600000 .f32) (main_arg4 : IVec S1000000 32) (main_arg5 : IVec S1000000 32) (main_arg6 : FVec F S1000000 .f32) (main_arg7 : IVec S1000000 32) (main_arg8 : IVec S1000000 32) (main_arg9 : FVec F S1000000 .f32) (main_arg10 : IVec S1000000 32) (main_arg11 : IVec S1000000 32) (main_arg12 : FVec F S1000000 .f32) (main_arg13 : IVec S1000000 32) (main_arg14 : IVec S1000000 32) (main_arg15 : FVec F S1000000 .f32) (main_arg16 : FVec F S128x128 .f32) (main_arg17 : FVec F S128 .f32) (main_arg18 : FVec F S128x128 .f32) (main_arg19 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1000000 .f32 := Host.absf main_arg6
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg9
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg12 main_arg15 main_arg16 main_arg17 main_arg18 main_arg19 main_v13 main_v16
-- ==== Kernel.lean ====
abbrev S100000x128 : Shape := ⟨2, ![100000, 128]⟩
abbrev S1600000 : Shape := ⟨1, ![1600000]⟩
abbrev S1000000 : Shape := ⟨1, ![1000000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1000000x1 : Shape := ⟨2, ![1000000, 1]⟩
abbrev S1000000x128 : Shape := ⟨2, ![1000000, 128]⟩
abbrev S20000x128 : Shape := ⟨2, ![20000, 128]⟩
abbrev S1x128 : Shape := ⟨2, ![1, 128]⟩
abbrev S4000x128 : Shape := ⟨2, ![4000, 128]⟩

abbrev nBuf : Space → Nat
  | .hbm => 107
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1000000, .i32⟩
  | .hbm, ⟨5, _⟩ => ⟨S1000000, .i32⟩
  | .hbm, ⟨6, _⟩ => ⟨S1000000, .f32⟩
  | .hbm, ⟨7, _⟩ => ⟨S1000000, .i32⟩
  | .hbm, ⟨8, _⟩ => ⟨S1000000, .i32⟩
  | .hbm, ⟨9, _⟩ => ⟨S1000000, .f32⟩
  | .hbm, ⟨10, _⟩ => ⟨S1000000, .i32⟩
  | .hbm, ⟨11, _⟩ => ⟨S1000000, .i32⟩
  | .hbm, ⟨12, _⟩ => ⟨S1000000, .f32⟩
  | .hbm, ⟨13, _⟩ => ⟨S1000000, .i32⟩
  | .hbm, ⟨14, _⟩ => ⟨S1000000, .i32⟩
  | .hbm, ⟨15, _⟩ => ⟨S1000000, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S1600000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S1000000x1, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x128, .f32⟩
  | .hbm, ⟨46, _⟩ => ⟨S1000000x128, .f32⟩
  | .hbm, ⟨47, _⟩ => ⟨S1000000x128, .f32⟩
  | .hbm, ⟨48, _⟩ => ⟨S_, .f32⟩
  | .hbm, ⟨49, _⟩ => ⟨S20000x128, .f32⟩
  | .hbm, ⟨50, _⟩ => ⟨S1000000x1, .i32⟩
  | .hbm, ⟨51, _⟩ => ⟨S20000x128, .f32⟩
  | .hbm, ⟨52, _⟩ => ⟨S1000000x1, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000x128, .f32⟩
  | .hbm, ⟨62, _⟩ => ⟨S1000000x128, .f32⟩
  | .hbm, ⟨63, _⟩ => ⟨S1000000x128, .f32⟩
  | .hbm, ⟨64, _⟩ => ⟨S_, .f32⟩
  | .hbm, ⟨65, _⟩ => ⟨S100000x128, .f32⟩
  | .hbm, ⟨66, _⟩ => ⟨S1000000x1, .i32⟩
  | .hbm, ⟨67, _⟩ => ⟨S100000x128, .f32⟩
  | .hbm, ⟨68, _⟩ => ⟨S1000000x1, .f32⟩
  | .hbm, ⟨69, _⟩ => ⟨S_, .i32⟩
  | .hbm, ⟨70, _⟩ => ⟨S1000000, .i32⟩
  | .hbm, ⟨71, _⟩ => ⟨S1000000, .i1⟩
  | .hbm, ⟨72, _⟩ => ⟨S_, .i32⟩
  | .hbm, ⟨73, _⟩ => ⟨S1000000, .i32⟩
  | .hbm, ⟨74, _⟩ => ⟨S1000000, .i32⟩
  | .hbm, ⟨75, _⟩ => ⟨S1000000, .i32⟩
  | .hbm, ⟨76, _⟩ => ⟨S1000000x1, .i32⟩
  | .hbm, ⟨77, _⟩ => ⟨S1000000x128, .f32⟩
  | .hbm, ⟨78, _⟩ => ⟨S1000000x128, .f32⟩
  | .hbm, ⟨79, _⟩ => ⟨S1000000x128, .f32⟩
  | .hbm, ⟨80, _⟩ => ⟨S_, .f32⟩
  | .hbm, ⟨81, _⟩ => ⟨S20000x128, .f32⟩
  | .hbm, ⟨82, _⟩ => ⟨S1000000x1, .i32⟩
  | .hbm, ⟨83, _⟩ => ⟨S20000x128, .f32⟩
  | .hbm, ⟨84, _⟩ => ⟨S1000000x1, .f32⟩
  | .hbm, ⟨85, _⟩ => ⟨S_, .i32⟩
  | .hbm, ⟨86, _⟩ => ⟨S1000000, .i32⟩
  | .hbm, ⟨87, _⟩ => ⟨S1000000, .i1⟩
  | .hbm, ⟨88, _⟩ => ⟨S_, .i32⟩
  | .hbm, ⟨89, _⟩ => ⟨S1000000, .i32⟩
  | .hbm, ⟨90, _⟩ => ⟨S1000000, .i32⟩
  | .hbm, ⟨91, _⟩ => ⟨S1000000, .i32⟩
  | .hbm, ⟨92, _⟩ => ⟨S1000000x1, .i32⟩
  | .hbm, ⟨93, _⟩ => ⟨S1000000x128, .f32⟩
  | .hbm, ⟨94, _⟩ => ⟨S1000000x128, .f32⟩
  | .hbm, ⟨95, _⟩ => ⟨S1000000x128, .f32⟩
  | .hbm, ⟨96, _⟩ => ⟨S_, .f32⟩
  | .hbm, ⟨97, _⟩ => ⟨S100000x128, .f32⟩
  | .hbm, ⟨98, _⟩ => ⟨S1000000x1, .i32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S128x128, .f32⟩
  | .hbm, ⟨103, _⟩ => ⟨S128x128, .f32⟩
  | .hbm, ⟨104, _⟩ => ⟨S1x128, .f32⟩
  | .hbm, ⟨105, _⟩ => ⟨S1x128, .f32⟩
  | .hbm, ⟨106, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_v14 : Ref sig .tc := ⟨.hbm, 38, rfl⟩
abbrev main_v15 : Ref sig .tc := ⟨.hbm, 39, rfl⟩
abbrev main_c_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_c_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_10 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S20000x128 : S_.BroadcastsInDim S20000x128 (![] : Fin 0 → Fin S20000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v69) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v70) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v71) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S1000000 : Shape := ⟨1, ![1000000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1000000x1 : Shape := ⟨2, ![1000000, 1]⟩
abbrev S1000000x128 : Shape := ⟨2, ![1000000, 128]⟩
abbrev S20000x128 : Shape := ⟨2, ![20000, 128]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S1000000, .i32⟩
  | 5 => ⟨S1000000, .i32⟩
  | 6 => ⟨S1000000, .f32⟩
  | 7 => ⟨S1000000, .i32⟩
  | 8 => ⟨S1000000, .i32⟩
  | 9 => ⟨S1000000, .f32⟩
  | 10 => ⟨S1000000, .i32⟩
  | 11 => ⟨S1000000, .i32⟩
  | 12 => ⟨S1000000, .f32⟩
  | 13 => ⟨S1000000, .i32⟩
  | 14 => ⟨S1000000, .i32⟩
  | 15 => ⟨S1000000, .f32⟩
  | 16 => ⟨S128x128, .f32⟩
  | 17 => ⟨S128, .f32⟩
  | 18 => ⟨S128x128, .f32⟩
  | 19 => ⟨S128, .f32⟩
  | 20 => ⟨S1600000x1, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S1600000x128, .f32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S1000000x1, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x128, .f32⟩
  | 46 => ⟨S1000000x128, .f32⟩
  | 47 => ⟨S1000000x128, .f32⟩
  | 48 => ⟨S_, .f32⟩
  | 49 => ⟨S20000x128, .f32⟩
  | 50 => ⟨S1000000x1, .i32⟩
  | 51 => ⟨S20000x128, .f32⟩
  | 52 => ⟨S1000000x1, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x128, .f32⟩
  | 62 => ⟨S1000000x128, .f32⟩
  | 63 => ⟨S1000000x128, .f32⟩
  | 64 => ⟨S_, .f32⟩
  | 65 => ⟨S100000x128, .f32⟩
  | 66 => ⟨S1000000x1, .i32⟩
  | 67 => ⟨S100000x128, .f32⟩
  | 68 => ⟨S1000000x1, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x128, .f32⟩
  | 78 => ⟨S1000000x128, .f32⟩
  | 79 => ⟨S1000000x128, .f32⟩
  | 80 => ⟨S_, .f32⟩
  | 81 => ⟨S20000x128, .f32⟩
  | 82 => ⟨S1000000x1, .i32⟩
  | 83 => ⟨S20000x128, .f32⟩
  | 84 => ⟨S1000000x1, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x128, .f32⟩
  | 94 => ⟨S1000000x128, .f32⟩
  | 95 => ⟨S1000000x128, .f32⟩
  | 96 => ⟨S_, .f32⟩
  | 97 => ⟨S100000x128, .f32⟩
  | 98 => ⟨S1000000x1, .i32⟩
  | 99 => ⟨S100000x128, .f32⟩
  | 100 => ⟨S100000x128, .f32⟩
  | 101 => ⟨S100000x128, .f32⟩
  | 102 => ⟨S100000x128, .f32⟩
  | 103 => ⟨S128x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .i1⟩
  | 111 => ⟨S_, .f32⟩
  | 112 => ⟨S100000x128, .f32⟩
  | 113 => ⟨S100000x128, .f32⟩
  | 114 => ⟨S100000x128, .f32⟩
  | 115 => ⟨S100000x128, .f32⟩
  | 116 => ⟨S128x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .i1⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_v14 : Ref sig .tc := ⟨.hbm, 38, rfl⟩
abbrev main_v15 : Ref sig .tc := ⟨.hbm, 39, rfl⟩
abbrev main_c_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_c_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_10 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call0_cst : Ref sig .tc := ⟨.hbm, 108, rfl⟩
abbrev main_call0_v0 : Ref sig .tc := ⟨.hbm, 109, rfl⟩
abbrev main_call0_v1 : Ref sig .tc := ⟨.hbm, 110, rfl⟩
abbrev main_call0_cst_0 : Ref sig .tc := ⟨.hbm, 111, rfl⟩
abbrev main_call0_v2 : Ref sig .tc := ⟨.hbm, 112, rfl⟩
abbrev main_call0_v3 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_call1_cst : Ref sig .tc := ⟨.hbm, 121, rfl⟩
abbrev main_call1_v0 : Ref sig .tc := ⟨.hbm, 122, rfl⟩
abbrev main_call1_v1 : Ref sig .tc := ⟨.hbm, 123, rfl⟩
abbrev main_call1_cst_0 : Ref sig .tc := ⟨.hbm, 124, rfl⟩
abbrev main_call1_v2 : Ref sig .tc := ⟨.hbm, 125, rfl⟩
abbrev main_call1_v3 : Ref sig .tc := ⟨.hbm, 126, rfl⟩
abbrev main_v80 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S20000x128 : S_.BroadcastsInDim S20000x128 (![] : Fin 0 → Fin S20000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.Spec.lean ====
/-
  The dense layer both programs end with, as one function of its operands on the extended reals.

  For a table `ego` and the sparse sum `side` (both `[M, 128]`), square weights `w1`, `w2` (`[128, 128]`, already
  transposed) and one-row biases `b1`, `b2` (`[1, 128]`):
      layer = lrelu ((ego + side)·w1 + b1) + lrelu ((ego ∘ side)·w2 + b2),
  where `lrelu t` is `t` when `t ≥ 0` and the constant `0x3C23D70A` (the single-precision number nearest 1/100) times `t`
  otherwise, spelt as both programs spell it: a comparison with zero and a selection.

  Entry `(p, q)` of the layer depends on row `p` of `ego` and `side` only, so rows `o, …, o + R - 1` of the layer are the
  layer of those rows (`layer_rows`): this is what lets a kernel that computes 4000 rows per grid point agree with a
  reference that computes all 100000 at once.
-/
import proofs.«174703_j32117765440057_1_alg».proof.Proof.LibPlainDot
import proofs.«174703_j32117765440057_1_alg».proof.Proof.LibRowBias
import Idealize.ShloMosaic.PureOps.Ideal
import Idealize.ShloMosaic.Lib.ValueIdx

noncomputable section

namespace Cert.Bridge

open Idealize.ShloMosaic Idealize.ShloMosaic.ValueIdx Cert.LibPlainDot Cert.LibRowBias

/-- The leaky rectifier, entry by entry: compare with zero, keep the entry or scale it. -/
def lrelu {s : Shape} (x : FVec Ideal s .f32) : FVec Ideal s .f32 :=
  select (cmpf .oge x (broadcast s (Scalar.ofBits (F := Ideal) .f32 0x00000000#32))) x
    (mulf (broadcast s (Scalar.ofBits (F := Ideal) .f32 0x3C23D70A#32)) x)

/-- One entry of the rectifier. -/
def lreluAt (t : EReal) : EReal :=
  Scalar.select (FloatOps.cmpf (F := Ideal) (φ := .f32) .oge t (Scalar.ofBits (F := Ideal) .f32 0x00000000#32)) t
    (FloatOps.mulf (F := Ideal) (φ := .f32) (Scalar.ofBits (F := Ideal) .f32 0x3C23D70A#32) t)

theorem lrelu_apply {s : Shape} (x : FVec Ideal s .f32) (i : s.Idx) : lrelu x i = lreluAt (x i) := rfl

/-- One branch of the layer: the rectifier of `x·w + b`. -/
def branch {M : ℕ} (x : (⟨2, ![M, 128]⟩ : Shape).Idx → EReal) (w : (⟨2, ![128, 128]⟩ : Shape).Idx → EReal)
    (b : (⟨2, ![1, 128]⟩ : Shape).Idx → EReal) : (⟨2, ![M, 128]⟩ : Shape).Idx → EReal :=
  lrelu (s := ⟨2, ![M, 128]⟩) (rowBias (rowsTimes x w) b)

/-- The layer: the sum branch on `ego + side` plus the product branch on `ego ∘ side`. -/
def layer {M : ℕ} (ego side : (⟨2, ![M, 128]⟩ : Shape).Idx → EReal)
    (w1 : (⟨2, ![128, 128]⟩ : Shape).Idx → EReal) (b1 : (⟨2, ![1, 128]⟩ : Shape).Idx → EReal)
    (w2 : (⟨2, ![128, 128]⟩ : Shape).Idx → EReal) (b2 : (⟨2, ![1, 128]⟩ : Shape).Idx → EReal) :
    (⟨2, ![M, 128]⟩ : Shape).Idx → EReal :=
  fun i => branch (fun j => ego j + side j) w1 b1 i + branch (fun j => ego j * side j) w2 b2 i

/-- Rows `o, …, o + R - 1` of a branch are the branch of those rows of its operand. -/
theorem branch_rows {M R : ℕ} (o : ℕ) (x : (⟨2, ![M, 128]⟩ : Shape).Idx → EReal) (xb : (⟨2, ![R, 128]⟩ : Shape).Idx → EReal)
    (w : (⟨2, ![128, 128]⟩ : Shape).Idx → EReal) (b : (⟨2, ![1, 128]⟩ : Shape).Idx → EReal)
    (hx : ∀ (p : Fin R) (k : Fin 128) (h : o + p.val < M), xb (ix2 p k) = x (ix2 (⟨o + p.val, h⟩ : Fin M) k))
    (y : (⟨2, ![R, 128]⟩ : Shape).Idx) (i : (⟨2, ![M, 128]⟩ : Shape).Idx) (h0 : (i 0).val = o + (y 0).val) (h1 : (i 1).val = (y 1).val) :
    branch xb w b y = branch x w b i := by
  unfold branch
  rw [lrelu_apply, lrelu_apply]
  refine congrArg lreluAt ?_
  refine rowBias_rows o (rowsTimes x w) (rowsTimes xb w) b (fun p q h => ?_) y i h0 h1
  exact rowsTimes_rows o x xb w hx (ix2 p q) (ix2 (⟨o + p.val, h⟩ : Fin M) q) rfl rfl

/-- Rows `o, …, o + R - 1` of the layer are the layer of those rows of `ego` and `side`. -/
theorem layer_rows {M R : ℕ} (o : ℕ) (ego side : (⟨2, ![M, 128]⟩ : Shape).Idx → EReal) (egoB sideB : (⟨2, ![R, 128]⟩ : Shape).Idx → EReal)
    (w1 w1' : (⟨2, ![128, 128]⟩ : Shape).Idx → EReal) (b1 b1' : (⟨2, ![1, 128]⟩ : Shape).Idx → EReal)
    (w2 w2' : (⟨2, ![128, 128]⟩ : Shape).Idx → EReal) (b2 b2' : (⟨2, ![1, 128]⟩ : Shape).Idx → EReal)
    (hw1 : w1' = w1) (hb1 : b1' = b1) (hw2 : w2' = w2) (hb2 : b2' = b2)
    (he : ∀ (p : Fin R) (k : Fin 128) (h : o + p.val < M), egoB (ix2 p k) = ego (ix2 (⟨o + p.val, h⟩ : Fin M) k))
    (hs : ∀ (p : Fin R) (k : Fin 128) (h : o + p.val < M), sideB (ix2 p k) = side (ix2 (⟨o + p.val, h⟩ : Fin M) k))
    (y : (⟨2, ![R, 128]⟩ : Shape).Idx) (i : (⟨2, ![M, 128]⟩ : Shape).Idx) (h0 : (i 0).val = o + (y 0).val) (h1 : (i 1).val = (y 1).val) :
    layer egoB sideB w1' b1' w2' b2' y = layer ego side w1 b1 w2 b2 i := by
  subst hw1 hb1 hw2 hb2
  unfold layer
  show branch (fun j => egoB j + sideB j) w1' b1' y + branch (fun j => egoB j * sideB j) w2' b2' y
    = branch (fun j => ego j + side j) w1' b1' i + branch (fun j => ego j * side j) w2' b2' i
  rw [branch_rows o (fun j => ego j + side j) (fun j => egoB j + sideB j) w1' b1'
        (fun p k h => by show egoB (ix2 p k) + sideB (ix2 p k) = ego _ + side _; rw [he p k h, hs p k h]) y i h0 h1,
      branch_rows o (fun j => ego j * side j) (fun j => egoB j * sideB j) w2' b2'
        (fun p k h => by show egoB (ix2 p k) * sideB (ix2 p k) = ego _ * side _; rw [he p k h, hs p k h]) y i h0 h1]

end Cert.Bridge

end
-- ==== Proof.KernelPayload.lean ====
/-
  What one grid point of the kernel computes, on the extended reals.

  At a grid point the body holds a 4000-row block of `ego` and of `side`, the two whole weight matrices and the two one-row
  biases. It rounds the sum and the product of the two blocks, and the weights, to a shorter float format — the identity
  on the extended reals —, multiplies each into a zero accumulator on the matrix unit — the plain matrix product —, adds
  the bias row to every row, applies the leaky rectifier and adds the two branches. So what it stores is the dense layer
  (`Cert.Bridge.layer`) of the blocks it loaded.
-/
import proofs.«174703_j32117765440057_1_alg».proof.Proof.Gen.KernelIdeal.Skeleton
import proofs.«174703_j32117765440057_1_alg».proof.Proof.Spec
import Idealize.ShloMosaic.Lib.Pipeline.Value
import Idealize.ShloMosaic.Lib.ValueLayout

noncomputable section

namespace Cert.KernelIdeal.Point

open Cert.KernelIdeal Cert.KernelIdeal.Gen Idealize.ShloMosaic Idealize.ShloMosaic.ValueIdx
open Cert.Bridge Cert.LibPlainDot Cert.LibRowBias

/-- One branch of the body before the rectifier: the rounded operand times the rounded weights into the zero
    accumulator, plus the bias row broadcast over the 4000 rows, is `x·w + b`. -/
theorem body_branch (x : FVec Ideal S4000x128 .f32) (w : FVec Ideal S128x128 .f32) (b : FVec Ideal S1x128 .f32)
    (hb : FTy.bf16.bits < FTy.f32.bits) (hw : S128x128.ShapeCasts S128x128) (hc : S1x128.ShapeCasts S1x128)
    (hr : S1x128.Broadcasts S4000x128) :
    addf (matmul dot_S4000x128_S128x128_S4000x128_1_0_0_1_n_n none (truncf .bf16 x hb)
          (truncf .bf16 (shapeCast S128x128 w hw) hb) (constant S4000x128 .f32 0x00000000#32))
        (broadcastTo S4000x128 (shapeCast S1x128 b hc) hr)
      = rowBias (M := 4000) (N := 128) (rowsTimes (M := 4000) (K := 128) (N := 128) x w) b := by
  rw [shapeCast_self w hw, shapeCast_self b hc]
  have hm : matmul dot_S4000x128_S128x128_S4000x128_1_0_0_1_n_n none (truncf .bf16 x hb) (truncf .bf16 w hb)
        (constant S4000x128 .f32 0x00000000#32)
      = rowsTimes (M := 4000) (K := 128) (N := 128) x w :=
    matmul_zero_plain (M := 4000) (K := 128) (N := 128) none (truncf .bf16 x hb) (truncf .bf16 w hb)
  rw [hm]
  funext i
  obtain ⟨p, q, rfl⟩ : ∃ (p : Fin 4000) (q : Fin 128), i = ix2 p q := ⟨i 0, i 1, eq_ix2 i⟩
  rw [rowBias_apply, addf_apply, broadcastTo_1b_ab_apply]

/-- The value the body stores is the dense layer of the blocks it loaded: `v0`, `v1` the blocks of `ego` and `side`,
    `v3`, `v6` the weights of the sum and product branches, `v9`, `v11` their bias rows. -/
theorem pay_eq (v0 v1 : Vec Ideal S4000x128 .f32) (v3 v6 : Vec Ideal S128x128 .f32) (v9 v11 : Vec Ideal S1x128 .f32) :
    k0_pay1 (F := Ideal) v0 v1 v3 v6 v9 v11 = layer (M := 4000) v0 v1 v3 v9 v6 v11 := by
  unfold k0_pay1
  dsimp only
  rw [shapeCast_self v1, body_branch (addf v0 v1) v3 v9, body_branch (mulf v0 v1) v6 v11]
  rfl

end Cert.KernelIdeal.Point

end
-- ==== Proof.KernelBlocks.lean ====
/-
  From what each grid point writes back to the kernel's whole result array.

  The grid has 25 points; point `t` stages rows `4000·t, …, 4000·t + 3999` of `ego` and of `side`, the whole weight
  matrices and bias rows, and writes back the same rows of the result. By the payload lemma what it writes back is the
  dense layer of the staged blocks, and since an entry of the layer depends on its own row of `ego` and `side` only
  (`Cert.Bridge.layer_rows`) that is rows `4000·t, …` of the layer of the WHOLE arrays. Row `r` of the array lies in the
  block of point `r / 4000`, so the blocks cover the array and it ends holding the layer of the arrays the region found.
-/
import proofs.«174703_j32117765440057_1_alg».proof.Proof.Gen.KernelIdeal.Value
import proofs.«174703_j32117765440057_1_alg».proof.Proof.KernelPayload

noncomputable section

namespace Cert.KernelIdeal.Blocks

open Cert.KernelIdeal Cert.KernelIdeal.Gen Idealize.ShloMosaic Idealize.ShloMosaic.TcCoe Idealize.SL.Sem
open Idealize.ShloMosaic.ValueIdx Cert.Bridge
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer of the arrays as the region finds them (window `w`'s array is `V m c (Pipeline.arrRef spec0 w)`): the result
    array's final contents. -/
def out (c : Dev nD) : S100000x128.Idx → EReal :=
  layer (M := 100000) (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- The printed index maps over the grid: the two row-blocked inputs and the output sit at block `(t, 0)`, the four whole
    operands at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## A window's block at a point, read off ANY contents `A` of its array

The arrays the region finds are long folds of host operations; nothing below looks inside them: each read is stated for
arbitrary contents. -/

section Reads

variable (c : Dev nD) (t : Fin cfg0.N)

/-- Row `p` of point `t`'s block of the first window is row `4000·t + p` of its array. -/
theorem rows0 (A : Buf (Elt Ideal) ((c : Thread nD τ).loc (Pipeline.arrRef spec0 0))) (p : Fin 4000) (q : Fin 128) (h : 4000 * t.val + p.val < 100000) :
    (((cfg0.win 0).blk t).view.read (Elt Ideal) A : S4000x128.Idx → EReal) (ix2 p q)
      = (A : S100000x128.Idx → EReal) (ix2 (⟨4000 * t.val + p.val, h⟩ : Fin 100000) q) := by
  obtain ⟨e0, e1, -⟩ := idx_facts t
  show (A : S100000x128.Idx → EReal) (((cfg0.win 0).blk t).view.emb (ix2 p q)) = _
  refine congrArg (A : S100000x128.Idx → EReal) (funext fun a => Fin.ext ?_)
  match a with
  | ⟨0, _⟩ => show win0_0.index t (0 : Fin 2) * 4000 + 1 * p.val = 4000 * t.val + p.val; omega
  | ⟨1, _⟩ => show win0_0.index t (1 : Fin 2) * 128 + 1 * q.val = q.val; omega

/-- Row `p` of point `t`'s block of the second window is row `4000·t + p` of its array. -/
theorem rows1 (A : Buf (Elt Ideal) ((c : Thread nD τ).loc (Pipeline.arrRef spec0 1))) (p : Fin 4000) (q : Fin 128) (h : 4000 * t.val + p.val < 100000) :
    (((cfg0.win 1).blk t).view.read (Elt Ideal) A : S4000x128.Idx → EReal) (ix2 p q)
      = (A : S100000x128.Idx → EReal) (ix2 (⟨4000 * t.val + p.val, h⟩ : Fin 100000) q) := by
  obtain ⟨-, -, e0, e1, -⟩ := idx_facts t
  show (A : S100000x128.Idx → EReal) (((cfg0.win 1).blk t).view.emb (ix2 p q)) = _
  refine congrArg (A : S100000x128.Idx → EReal) (funext fun a => Fin.ext ?_)
  match a with
  | ⟨0, _⟩ => show win0_1.index t (0 : Fin 2) * 4000 + 1 * p.val = 4000 * t.val + p.val; omega
  | ⟨1, _⟩ => show win0_1.index t (1 : Fin 2) * 128 + 1 * q.val = q.val; omega

/-- The third window (a weight matrix) is staged whole at every point. -/
theorem whole2 (A : Buf (Elt Ideal) ((c : Thread nD τ).loc (Pipeline.arrRef spec0 2))) :
    (((cfg0.win 2).blk t).view.read (Elt Ideal) A : S128x128.Idx → EReal) = (A : S128x128.Idx → EReal) := by
  obtain ⟨-, -, -, -, e0, e1, -⟩ := idx_facts t
  funext y
  show (A : S128x128.Idx → EReal) (((cfg0.win 2).blk t).view.emb y) = (A : S128x128.Idx → EReal) y
  refine congrArg (A : S128x128.Idx → EReal) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The fourth window (a bias row) is staged whole at every point. -/
theorem whole3 (A : Buf (Elt Ideal) ((c : Thread nD τ).loc (Pipeline.arrRef spec0 3))) :
    (((cfg0.win 3).blk t).view.read (Elt Ideal) A : S1x128.Idx → EReal) = (A : S1x128.Idx → EReal) := by
  obtain ⟨-, -, -, -, -, -, e0, e1, -⟩ := idx_facts t
  funext y
  show (A : S1x128.Idx → EReal) (((cfg0.win 3).blk t).view.emb y) = (A : S1x128.Idx → EReal) y
  refine congrArg (A : S1x128.Idx → EReal) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The fifth window (a weight matrix) is staged whole at every point. -/
theorem whole4 (A : Buf (Elt Ideal) ((c : Thread nD τ).loc (Pipeline.arrRef spec0 4))) :
    (((cfg0.win 4).blk t).view.read (Elt Ideal) A : S128x128.Idx → EReal) = (A : S128x128.Idx → EReal) := by
  obtain ⟨-, -, -, -, -, -, -, -, e0, e1, -⟩ := idx_facts t
  funext y
  show (A : S128x128.Idx → EReal) (((cfg0.win 4).blk t).view.emb y) = (A : S128x128.Idx → EReal) y
  refine congrArg (A : S128x128.Idx → EReal) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The sixth window (a bias row) is staged whole at every point. -/
theorem whole5 (A : Buf (Elt Ideal) ((c : Thread nD τ).loc (Pipeline.arrRef spec0 5))) :
    (((cfg0.win 5).blk t).view.read (Elt Ideal) A : S1x128.Idx → EReal) = (A : S1x128.Idx → EReal) := by
  obtain ⟨-, -, -, -, -, -, -, -, -, -, e0, e1, -⟩ := idx_facts t
  funext y
  show (A : S1x128.Idx → EReal) (((cfg0.win 5).blk t).view.emb y) = (A : S1x128.Idx → EReal) y
  refine congrArg (A : S1x128.Idx → EReal) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The layer of the staged blocks at point `t` is rows `4000·t, …` of the layer of the whole arrays, whatever the six
    arrays hold. -/
theorem layer_of_blocks (A0 : Buf (Elt Ideal) ((c : Thread nD τ).loc (Pipeline.arrRef spec0 0))) (A1 : Buf (Elt Ideal) ((c : Thread nD τ).loc (Pipeline.arrRef spec0 1)))
    (A2 : Buf (Elt Ideal) ((c : Thread nD τ).loc (Pipeline.arrRef spec0 2))) (A3 : Buf (Elt Ideal) ((c : Thread nD τ).loc (Pipeline.arrRef spec0 3)))
    (A4 : Buf (Elt Ideal) ((c : Thread nD τ).loc (Pipeline.arrRef spec0 4))) (A5 : Buf (Elt Ideal) ((c : Thread nD τ).loc (Pipeline.arrRef spec0 5)))
    (y : S4000x128.Idx) :
    layer (M := 4000) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5) y
      = layer (M := 100000) A0 A1 A2 A3 A4 A5 (((cfg0.win 6).blk t).view.emb y) := by
  obtain ⟨-, -, -, -, -, -, -, -, -, -, -, -, e0, e1⟩ := idx_facts t
  refine layer_rows (4000 * t.val) _ _ _ _ _ _ _ _ _ _ _ _ (whole2 c t A2) (whole3 c t A3) (whole4 c t A4) (whole5 c t A5)
    (fun p k h => rows0 c t A0 p k h) (fun p k h => rows1 c t A1 p k h) y _ ?_ ?_
  · show win0_6.index t (0 : Fin 2) * 4000 + 1 * (y 0).val = 4000 * t.val + (y 0).val; omega
  · show win0_6.index t (1 : Fin 2) * 128 + 1 * (y 1).val = (y 1).val; omega

end Reads

/-- What point `t` writes back is block `t` of the layer of the whole arrays. -/
theorem flushed_eq (c : Dev nD) (t : Fin cfg0.N) :
    (dats m 0 c).flushed 6 t = ((cfg0.win 6).blk t).view.read (Elt Ideal) (out m c) := by
  rw [Value.flushed6]
  unfold out0_6
  rw [View.canon_unit_zero hz]
  simp only [View.ld_unit_zero (S := S4000x128) hz, View.ld_unit_zero (S := S128x128) hz, View.ld_unit_zero (S := S1x128) hz]
  rw [Point.pay_eq]
  funext y
  show layer (M := 4000) (iblk m c 0 t) (iblk m c 1 t) (iblk m c 2 t) (iblk m c 3 t) (iblk m c 4 t) (iblk m c 5 t) y
    = out m c (((cfg0.win 6).blk t).view.emb y)
  exact layer_of_blocks c t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) y

/-- An index is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v71).slice (win0_6.rect t)).set ↔ _
  rw [View.set_slice_whole, Rect.mem_set_unit]
  exact Iff.rfl

/-- Row `r` lies in the block of point `r / 4000`: the 25 blocks cover the array. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- The result array after the run is the layer of the arrays the region found. -/
theorem final (c : Dev nD) : (dats m 0 c).arrAt 6 cfg0.N = out m c :=
  (dats m 0 c).arrAt_eq_of_cover 6 (out m c) (fun t _ => flushed_eq m c t) cover

end Cert.KernelIdeal.Blocks

end
-- ==== Proof.SideChain.lean ====
/-
  The sparse part both programs share: side = A·ego + P2·(P1·ego) + L2·(L1·ego).

  Each product of a sparse matrix in coordinate form (row numbers, column numbers, values) with a dense table `x` is three
  steps: gather the table's rows at the column numbers (a negative column number counts from the end: the table's height is
  added to it), scale row `e` of the gathered rows by value `e`, and add row `e` into row `rows e` of a zero table. The
  kernel's program and the reference spell these steps with the same host operations, so both hold `side` as this one term
  of their arguments; nothing below it is ever opened: the two programs agree on it by being the same function.
-/
import proofs.«174703_j32117765440057_1_alg».proof.Proof.Gen.KernelIdeal
import Idealize.ShloMosaic.PureOps.Ideal

noncomputable section

namespace Cert.Bridge

open Idealize.ShloMosaic Cert.KernelIdeal Cert.KernelIdeal.Gen

variable {F : FTy → Type} [FloatOps F]

/-- The 1,600,000-entry matrix A (100000 × 100000) times a 100000-row table. -/
def spmmA (x : (⟨S100000x128, .f32⟩ : BufTy).Contents (Elt F)) (rows cols : (⟨S1600000, .i32⟩ : BufTy).Contents (Elt F))
    (vals : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf
      (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 x
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32)))
            cols))))

/-- A 1,000,000-entry matrix of 20000 rows (P1, L1) times a 100000-row table. -/
def spmmDown (x : (⟨S100000x128, .f32⟩ : BufTy).Contents (Elt F)) (rows cols : (⟨S1000000, .i32⟩ : BufTy).Contents (Elt F))
    (vals : (⟨S1000000, .f32⟩ : BufTy).Contents (Elt F)) : (⟨S20000x128, .f32⟩ : BufTy).Contents (Elt F) :=
  Host.scatterAdd scatter_S20000x128_S1000000x1_S1000000x128_1_0_0_1
    (broadcastInDim S20000x128 ![] bcast_S_S20000x128 (constant S_ .f32 0x00000000#32))
    (broadcastInDim S1000000x1 ![0] bcast_S1000000_S1000000x1_0 rows)
    (mulf
      (broadcastInDim S1000000x128 ![0, 1] bcast_S1000000x1_S1000000x128_0_1
        (broadcastInDim S1000000x1 ![0] bcast_S1000000_S1000000x1_0 vals))
      (Host.gather gather_S100000x128_S1000000x1_S1000000x128_1_0_n_n_0_1_1128 x
        (broadcastInDim S1000000x1 ![0] bcast_S1000000_S1000000x1_0
          (select (cmpi .slt cols (broadcastInDim S1000000 ![] bcast_S_S1000000 (constantI S_ 32 0#32)))
            (addi cols (broadcastInDim S1000000 ![] bcast_S_S1000000 (constantI S_ 32 100000#32)))
            cols))))

/-- A 1,000,000-entry matrix of 100000 rows (P2, L2) times a 20000-row table. -/
def spmmUp (x : (⟨S20000x128, .f32⟩ : BufTy).Contents (Elt F)) (rows cols : (⟨S1000000, .i32⟩ : BufTy).Contents (Elt F))
    (vals : (⟨S1000000, .f32⟩ : BufTy).Contents (Elt F)) : (⟨S100000x128, .f32⟩ : BufTy).Contents (Elt F) :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 rows)
    (mulf
      (broadcastInDim S1000000x128 ![0, 1] bcast_S1000000x1_S1000000x128_0_1
        (broadcastInDim S1000000x1 ![0] bcast_S1000000_S1000000x1_0 vals))
      (Host.gather gather_S20000x128_S1000000x1_S1000000x128_1_0_n_n_0_1_1128 x
        (broadcastInDim S1000000x1 ![0] bcast_S1000000_S1000000x1_0
          (select (cmpi .slt cols (broadcastInDim S1000000 ![] bcast_S_S1000000 (constantI S_ 32 0#32)))
            (addi cols (broadcastInDim S1000000 ![] bcast_S_S1000000 (constantI S_ 32 20000#32)))
            cols))))

/-- side = A·ego + P2·(P1·ego) + L2·(L1·ego), the sums taken left to right. -/
def side (ego : (⟨S100000x128, .f32⟩ : BufTy).Contents (Elt F))
    (aR aC : (⟨S1600000, .i32⟩ : BufTy).Contents (Elt F)) (aV : (⟨S1600000, .f32⟩ : BufTy).Contents (Elt F))
    (p1R p1C : (⟨S1000000, .i32⟩ : BufTy).Contents (Elt F)) (p1V : (⟨S1000000, .f32⟩ : BufTy).Contents (Elt F))
    (p2R p2C : (⟨S1000000, .i32⟩ : BufTy).Contents (Elt F)) (p2V : (⟨S1000000, .f32⟩ : BufTy).Contents (Elt F))
    (l1R l1C : (⟨S1000000, .i32⟩ : BufTy).Contents (Elt F)) (l1V : (⟨S1000000, .f32⟩ : BufTy).Contents (Elt F))
    (l2R l2C : (⟨S1000000, .i32⟩ : BufTy).Contents (Elt F)) (l2V : (⟨S1000000, .f32⟩ : BufTy).Contents (Elt F)) :
    (⟨S100000x128, .f32⟩ : BufTy).Contents (Elt F) :=
  addf (addf (spmmA ego aR aC aV) (spmmUp (spmmDown ego p1R p1C p1V) p2R p2C p2V))
    (spmmUp (spmmDown ego l1R l1C l1V) l2R l2C l2V)

end Cert.Bridge

end
-- ==== Proof.KernelHost.lean ====
/-
  The arrays the kernel's region finds: what @main's host operations leave before the launch.

  Before launching the kernel @main computes, with host operations, the sparse sum `side` (the shared chain,
  `Cert.Bridge.side`, of the sixteen sparse arguments), the two weight matrices transposed, and the two bias vectors
  reshaped to one row. Each is read here off the fold of the host operations over the launch memory, once; the chain is
  named, not opened.
-/
import proofs.«174703_j32117765440057_1_alg».proof.Proof.Gen.KernelIdeal.Frame
import proofs.«174703_j32117765440057_1_alg».proof.Proof.SideChain
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 40000000 in
/-- The second window's array is the sparse sum of the arguments. -/
theorem V_side (c : Dev nD) :
    (V m c main_v66 : (⟨S100000x128, .f32⟩ : BufTy).Contents (Elt F))
      = Cert.Bridge.side (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15)) := by
  dsimp only [V, hostOps0]
  after_results_simp <;> rfl

set_option maxRecDepth 8192 in
set_option maxHeartbeats 40000000 in
/-- The third window's array is the first weight matrix transposed. -/
theorem V_w1 (c : Dev nD) :
    (V m c main_v67 : (⟨S128x128, .f32⟩ : BufTy).Contents (Elt F))
      = transpose S128x128 [1, 0] (m ((c : Thread nD τ).loc main_arg16)) transposes_S128x128_S128x128_1_0 := by
  dsimp only [V, hostOps0]
  after_results_simp <;> rfl

set_option maxRecDepth 8192 in
set_option maxHeartbeats 40000000 in
/-- The fifth window's array is the second weight matrix transposed. -/
theorem V_w2 (c : Dev nD) :
    (V m c main_v68 : (⟨S128x128, .f32⟩ : BufTy).Contents (Elt F))
      = transpose S128x128 [1, 0] (m ((c : Thread nD τ).loc main_arg18)) transposes_S128x128_S128x128_1_0 := by
  dsimp only [V, hostOps0]
  after_results_simp <;> rfl

set_option maxRecDepth 8192 in
set_option maxHeartbeats 40000000 in
/-- The fourth window's array is the first bias as one row. -/
theorem V_b1 (c : Dev nD) :
    (V m c main_v69 : (⟨S1x128, .f32⟩ : BufTy).Contents (Elt F))
      = shapeCast S1x128 (m ((c : Thread nD τ).loc main_arg17)) shapeCasts_S128_S1x128 := by
  dsimp only [V, hostOps0]
  after_results_simp <;> rfl

set_option maxRecDepth 8192 in
set_option maxHeartbeats 40000000 in
/-- The sixth window's array is the second bias as one row. -/
theorem V_b2 (c : Dev nD) :
    (V m c main_v70 : (⟨S1x128, .f32⟩ : BufTy).Contents (Elt F))
      = shapeCast S1x128 (m ((c : Thread nD τ).loc main_arg19)) shapeCasts_S128_S1x128 := by
  dsimp only [V, hostOps0]
  after_results_simp <;> rfl

end Cert.KernelIdeal.Entry

end
-- ==== Proof.Result.lean ====
/-
  The result both programs compute, as one function of the twenty arguments on the extended reals:
      result = layer ego (side ego A P1 P2 L1 L2) W1ᵀ b1 W2ᵀ b2,
  the dense layer (`Cert.Bridge.layer`) of the entity table, its sparse sum (`Cert.Bridge.side`), the weights transposed
  and the biases as single rows.
-/
import proofs.«174703_j32117765440057_1_alg».proof.Proof.SideChain
import proofs.«174703_j32117765440057_1_alg».proof.Proof.Spec

noncomputable section

namespace Cert.Bridge

open Idealize.ShloMosaic Cert.KernelIdeal Cert.KernelIdeal.Gen

/-- The layer of the arguments: `ego`; the five sparse matrices as row numbers, column numbers and values; the weights
    `w1`, `w2` and biases `b1`, `b2` as given (untransposed, as vectors). -/
def result (ego : FVec Ideal S100000x128 .f32)
    (aR aC : IVec S1600000 32) (aV : FVec Ideal S1600000 .f32)
    (p1R p1C : IVec S1000000 32) (p1V : FVec Ideal S1000000 .f32)
    (p2R p2C : IVec S1000000 32) (p2V : FVec Ideal S1000000 .f32)
    (l1R l1C : IVec S1000000 32) (l1V : FVec Ideal S1000000 .f32)
    (l2R l2C : IVec S1000000 32) (l2V : FVec Ideal S1000000 .f32)
    (w1 : FVec Ideal S128x128 .f32) (b1 : FVec Ideal S128 .f32) (w2 : FVec Ideal S128x128 .f32) (b2 : FVec Ideal S128 .f32) :
    S100000x128.Idx → EReal :=
  layer (M := 100000) ego (side (F := Ideal) ego aR aC aV p1R p1C p1V p2R p2C p2V l1R l1C l1V l2R l2C l2V)
    (transpose S128x128 [1, 0] w1 transposes_S128x128_S128x128_1_0) (shapeCast S1x128 b1 shapeCasts_S128_S1x128)
    (transpose S128x128 [1, 0] w2 transposes_S128x128_S128x128_1_0) (shapeCast S1x128 b2 shapeCasts_S128_S1x128)

end Cert.Bridge

end
-- ==== Proof.KernelValue.lean ====
/-
  The kernel's run with its result array named: the layer of the launch arguments.

  The frame run leaves the result array at the layer of the arrays the region found (`Blocks.final`); the region found
  `ego` as launched, `side` at the sparse chain of the launch arguments, the weights transposed and the biases as rows
  (`Entry`): so the array ends at `Cert.Bridge.result` of the twenty launch arguments, which the run leaves unchanged.
-/
import proofs.«174703_j32117765440057_1_alg».proof.Proof.KernelBlocks
import proofs.«174703_j32117765440057_1_alg».proof.Proof.KernelHost
import proofs.«174703_j32117765440057_1_alg».proof.Proof.Result

noncomputable section

namespace Cert.KernelIdeal.Blocks

open Cert.KernelIdeal Cert.KernelIdeal.Gen Idealize.ShloMosaic Idealize.ShloMosaic.TcCoe Idealize.SL.Sem Cert.Bridge

variable (m : (ℓ : Loc nD τ sig) → Buf (Elt Ideal) ℓ) (ρ : Dev nD → PrngReg)

/-- The layer of equal operands is equal. -/
theorem layer_congr {M : ℕ} {ego ego' side side' : (⟨2, ![M, 128]⟩ : Shape).Idx → EReal}
    {w1 w1' w2 w2' : (⟨2, ![128, 128]⟩ : Shape).Idx → EReal} {b1 b1' b2 b2' : (⟨2, ![1, 128]⟩ : Shape).Idx → EReal}
    (h0 : ego = ego') (h1 : side = side') (h2 : w1 = w1') (h3 : b1 = b1') (h4 : w2 = w2') (h5 : b2 = b2') :
    layer ego side w1 b1 w2 b2 = layer ego' side' w1' b1' w2' b2' := by
  subst h0 h1 h2 h3 h4 h5; rfl

/-- The layer of the arrays the region found is the result of the launch arguments. -/
theorem out_eq (c : Dev nD) :
    out m c = result (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (m ((c : Thread nD τ).loc main_arg16))
      (m ((c : Thread nD τ).loc main_arg17))
      (m ((c : Thread nD τ).loc main_arg18))
      (m ((c : Thread nD τ).loc main_arg19)) := by
  show layer (M := 100000) (V m c (Pipeline.arrRef spec0 0)) (V m c (Pipeline.arrRef spec0 1)) (V m c (Pipeline.arrRef spec0 2))
      (V m c (Pipeline.arrRef spec0 3)) (V m c (Pipeline.arrRef spec0 4)) (V m c (Pipeline.arrRef spec0 5)) = _
  unfold result
  refine layer_congr ?_ ?_ ?_ ?_ ?_ ?_
  · exact V_main_arg0 m c
  · exact Entry.V_side m c
  · exact Entry.V_w1 m c
  · exact Entry.V_b1 m c
  · exact Entry.V_w2 m c
  · exact Entry.V_b2 m c

/-- Every weakly fair execution of the kernel's @main terminates with the result array at `result` of the launch
    arguments and the arguments unchanged. -/
theorem run : θ_run defs (onTc (τ := τ) (main (F := Ideal))) ⟨m, fun _ => 0, ρ⟩ fun r => ∀ c : Dev nD,
      r.2.mem ((c : Thread nD τ).loc main_v71)
        = result (m ((c : Thread nD τ).loc main_arg0))
            (m ((c : Thread nD τ).loc main_arg1))
            (m ((c : Thread nD τ).loc main_arg2))
            (m ((c : Thread nD τ).loc main_arg3))
            (m ((c : Thread nD τ).loc main_arg4))
            (m ((c : Thread nD τ).loc main_arg5))
            (m ((c : Thread nD τ).loc main_arg6))
            (m ((c : Thread nD τ).loc main_arg7))
            (m ((c : Thread nD τ).loc main_arg8))
            (m ((c : Thread nD τ).loc main_arg9))
            (m ((c : Thread nD τ).loc main_arg10))
            (m ((c : Thread nD τ).loc main_arg11))
            (m ((c : Thread nD τ).loc main_arg12))
            (m ((c : Thread nD τ).loc main_arg13))
            (m ((c : Thread nD τ).loc main_arg14))
            (m ((c : Thread nD τ).loc main_arg15))
            (m ((c : Thread nD τ).loc main_arg16))
            (m ((c : Thread nD τ).loc main_arg17))
            (m ((c : Thread nD τ).loc main_arg18))
            (m ((c : Thread nD τ).loc main_arg19))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans ((final m c).trans (out_eq m c)), (h c).2⟩) (Value.run_blocks m ρ)

end Cert.KernelIdeal.Blocks

end
-- ==== Proof.RefOps.lean ====
/-
  The reference's @main as a straight line of host operations.

  The reference computes, from the entity table `ego` and five sparse matrices in coordinate form,
    side = A·ego + P2·(P1·ego) + L2·(L1·ego)
  (each product a gather of rows, a scaling by the stored values and an accumulating scatter), and then the two-branch layer
    out = lrelu((ego + side)·W1ᵀ + b1) + lrelu((ego ∘ side)·W2ᵀ + b2),   lrelu t = t if t ≥ 0, else 0.01·t.
  Its operations are listed here in program order in three stretches: `opsA` (the first three sparse products, up to the
  scaled rows of L1's product), `opsB` (the rest of the sparse chain, ending in `side`), `opsC` (the dense layer, with the two
  calls of the leaky rectifier written out at their call sites over each call's own buffers). @main is their concatenation
  run in order, so every weakly fair execution ends with each buffer at the fold of these operations over the launch
  contents.
-/
import proofs.«174703_j32117765440057_1_alg».proof.Proof.Gen.ReferenceIdeal
import Idealize.ShloMosaic.Lib.StableHlo.Run
import Idealize.ShloMosaic.Lib.Pipeline.Frame

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- @main's first sixty operations: A·ego, P1·ego, P2·(P1·ego), and L1's gathered and scaled rows. -/
abbrev opsA : List (HloOp τ sig (Elt F)) :=
  [ unary main_arg3 main_v0 (broadcastInDim S1600000x1 ![0] bcast_S1600000_S1600000x1_0),
    nullary main_c (constantI S_ 32 0#32),
    unary main_c main_v1 (broadcastInDim S1600000 ![] bcast_S_S1600000),
    binary main_arg2 main_v1 main_v2 (cmpi .slt),
    nullary main_c_0 (constantI S_ 32 100000#32),
    unary main_c_0 main_v3 (broadcastInDim S1600000 ![] bcast_S_S1600000),
    binary main_arg2 main_v3 main_v4 addi,
    ternary main_v2 main_v4 main_arg2 main_v5 select,
    unary main_v5 main_v6 (broadcastInDim S1600000x1 ![0] bcast_S1600000_S1600000x1_0),
    binary main_arg0 main_v6 main_v7 (fun x i => Host.gather gather_S100000x128_S1600000x1_S1600000x128_1_0_n_n_0_1_1128 x i),
    unary main_v0 main_v8 (broadcastInDim S1600000x128 ![0, 1] bcast_S1600000x1_S1600000x128_0_1),
    binary main_v8 main_v7 main_v9 mulf,
    nullary main_cst (constant S_ .f32 0x00000000#32),
    unary main_cst main_v10 (broadcastInDim S100000x128 ![] bcast_S_S100000x128),
    unary main_arg1 main_v11 (broadcastInDim S1600000x1 ![0] bcast_S1600000_S1600000x1_0),
    ternary main_v10 main_v11 main_v9 main_v12 (fun x i u => Host.scatterAdd scatter_S100000x128_S1600000x1_S1600000x128_1_0_0_1 x i u),
    unary main_arg6 main_v13 (broadcastInDim S1000000x1 ![0] bcast_S1000000_S1000000x1_0),
    nullary main_c_1 (constantI S_ 32 0#32),
    unary main_c_1 main_v14 (broadcastInDim S1000000 ![] bcast_S_S1000000),
    binary main_arg5 main_v14 main_v15 (cmpi .slt),
    nullary main_c_2 (constantI S_ 32 100000#32),
    unary main_c_2 main_v16 (broadcastInDim S1000000 ![] bcast_S_S1000000),
    binary main_arg5 main_v16 main_v17 addi,
    ternary main_v15 main_v17 main_arg5 main_v18 select,
    unary main_v18 main_v19 (broadcastInDim S1000000x1 ![0] bcast_S1000000_S1000000x1_0),
    binary main_arg0 main_v19 main_v20 (fun x i => Host.gather gather_S100000x128_S1000000x1_S1000000x128_1_0_n_n_0_1_1128 x i),
    unary main_v13 main_v21 (broadcastInDim S1000000x128 ![0, 1] bcast_S1000000x1_S1000000x128_0_1),
    binary main_v21 main_v20 main_v22 mulf,
    nullary main_cst_3 (constant S_ .f32 0x00000000#32),
    unary main_cst_3 main_v23 (broadcastInDim S20000x128 ![] bcast_S_S20000x128),
    unary main_arg4 main_v24 (broadcastInDim S1000000x1 ![0] bcast_S1000000_S1000000x1_0),
    ternary main_v23 main_v24 main_v22 main_v25 (fun x i u => Host.scatterAdd scatter_S20000x128_S1000000x1_S1000000x128_1_0_0_1 x i u),
    unary main_arg9 main_v26 (broadcastInDim S1000000x1 ![0] bcast_S1000000_S1000000x1_0),
    nullary main_c_4 (constantI S_ 32 0#32),
    unary main_c_4 main_v27 (broadcastInDim S1000000 ![] bcast_S_S1000000),
    binary main_arg8 main_v27 main_v28 (cmpi .slt),
    nullary main_c_5 (constantI S_ 32 20000#32),
    unary main_c_5 main_v29 (broadcastInDim S1000000 ![] bcast_S_S1000000),
    binary main_arg8 main_v29 main_v30 addi,
    ternary main_v28 main_v30 main_arg8 main_v31 select,
    unary main_v31 main_v32 (broadcastInDim S1000000x1 ![0] bcast_S1000000_S1000000x1_0),
    binary main_v25 main_v32 main_v33 (fun x i => Host.gather gather_S20000x128_S1000000x1_S1000000x128_1_0_n_n_0_1_1128 x i),
    unary main_v26 main_v34 (broadcastInDim S1000000x128 ![0, 1] bcast_S1000000x1_S1000000x128_0_1),
    binary main_v34 main_v33 main_v35 mulf,
    nullary main_cst_6 (constant S_ .f32 0x00000000#32),
    unary main_cst_6 main_v36 (broadcastInDim S100000x128 ![] bcast_S_S100000x128),
    unary main_arg7 main_v37 (broadcastInDim S1000000x1 ![0] bcast_S1000000_S1000000x1_0),
    ternary main_v36 main_v37 main_v35 main_v38 (fun x i u => Host.scatterAdd scatter_S100000x128_S1000000x1_S1000000x128_1_0_0_1 x i u),
    unary main_arg12 main_v39 (broadcastInDim S1000000x1 ![0] bcast_S1000000_S1000000x1_0),
    nullary main_c_7 (constantI S_ 32 0#32),
    unary main_c_7 main_v40 (broadcastInDim S1000000 ![] bcast_S_S1000000),
    binary main_arg11 main_v40 main_v41 (cmpi .slt),
    nullary main_c_8 (constantI S_ 32 100000#32),
    unary main_c_8 main_v42 (broadcastInDim S1000000 ![] bcast_S_S1000000),
    binary main_arg11 main_v42 main_v43 addi,
    ternary main_v41 main_v43 main_arg11 main_v44 select,
    unary main_v44 main_v45 (broadcastInDim S1000000x1 ![0] bcast_S1000000_S1000000x1_0),
    binary main_arg0 main_v45 main_v46 (fun x i => Host.gather gather_S100000x128_S1000000x1_S1000000x128_1_0_n_n_0_1_1128 x i),
    unary main_v39 main_v47 (broadcastInDim S1000000x128 ![0, 1] bcast_S1000000x1_S1000000x128_0_1),
    binary main_v47 main_v46 main_v48 mulf ]

/-- The rest of the sparse chain: L1·ego scattered, L2·(L1·ego), and the sum `side` of the three products. -/
abbrev opsB : List (HloOp τ sig (Elt F)) :=
  [ nullary main_cst_9 (constant S_ .f32 0x00000000#32),
    unary main_cst_9 main_v49 (broadcastInDim S20000x128 ![] bcast_S_S20000x128),
    unary main_arg10 main_v50 (broadcastInDim S1000000x1 ![0] bcast_S1000000_S1000000x1_0),
    ternary main_v49 main_v50 main_v48 main_v51 (fun x i u => Host.scatterAdd scatter_S20000x128_S1000000x1_S1000000x128_1_0_0_1 x i u),
    unary main_arg15 main_v52 (broadcastInDim S1000000x1 ![0] bcast_S1000000_S1000000x1_0),
    nullary main_c_10 (constantI S_ 32 0#32),
    unary main_c_10 main_v53 (broadcastInDim S1000000 ![] bcast_S_S1000000),
    binary main_arg14 main_v53 main_v54 (cmpi .slt),
    nullary main_c_11 (constantI S_ 32 20000#32),
    unary main_c_11 main_v55 (broadcastInDim S1000000 ![] bcast_S_S1000000),
    binary main_arg14 main_v55 main_v56 addi,
    ternary main_v54 main_v56 main_arg14 main_v57 select,
    unary main_v57 main_v58 (broadcastInDim S1000000x1 ![0] bcast_S1000000_S1000000x1_0),
    binary main_v51 main_v58 main_v59 (fun x i => Host.gather gather_S20000x128_S1000000x1_S1000000x128_1_0_n_n_0_1_1128 x i),
    unary main_v52 main_v60 (broadcastInDim S1000000x128 ![0, 1] bcast_S1000000x1_S1000000x128_0_1),
    binary main_v60 main_v59 main_v61 mulf,
    nullary main_cst_12 (constant S_ .f32 0x00000000#32),
    unary main_cst_12 main_v62 (broadcastInDim S100000x128 ![] bcast_S_S100000x128),
    unary main_arg13 main_v63 (broadcastInDim S1000000x1 ![0] bcast_S1000000_S1000000x1_0),
    ternary main_v62 main_v63 main_v61 main_v64 (fun x i u => Host.scatterAdd scatter_S100000x128_S1000000x1_S1000000x128_1_0_0_1 x i u),
    binary main_v12 main_v38 main_v65 addf,
    binary main_v65 main_v64 main_v66 addf ]

/-- The dense layer: both branches' products with the transposed weights, the biases broadcast over the rows, the leaky
    rectifier of each (its seven operations over the call's own buffers), and the branches' sum. -/
abbrev opsC : List (HloOp τ sig (Elt F)) :=
  [ binary main_arg0 main_v66 main_v67 addf,
    unary main_arg16 main_v68 (transpose S128x128 [1, 0] · transposes_S128x128_S128x128_1_0),
    binary main_v67 main_v68 main_v69 (fun l r => Host.dotGeneral dot_S100000x128_S128x128_S100000x128_1_0_0_1_n_n none l r),
    unary main_arg17 main_v70 (broadcastInDim S1x128 ![1] bcast_S128_S1x128_1),
    unary main_v70 main_v71 (broadcastInDim S100000x128 ![0, 1] bcast_S1x128_S100000x128_0_1),
    binary main_v69 main_v71 main_v72 addf,
    TRef.nullary main_call0.cst (constant S_ .f32 0x00000000#32),
    TRef.unary main_call0.cst main_call0.v0 (broadcastInDim S100000x128 ![] bcast_S_S100000x128),
    TRef.binary (.of main_v72) main_call0.v0 main_call0.v1 (cmpf .oge),
    TRef.nullary main_call0.cst_0 (constant S_ .f32 0x3C23D70A#32),
    TRef.unary main_call0.cst_0 main_call0.v2 (broadcastInDim S100000x128 ![] bcast_S_S100000x128),
    TRef.binary main_call0.v2 (.of main_v72) main_call0.v3 mulf,
    TRef.ternary main_call0.v1 (.of main_v72) main_call0.v3 main_call0.call0.v0 select,
    binary main_arg0 main_v66 main_v74 mulf,
    unary main_arg18 main_v75 (transpose S128x128 [1, 0] · transposes_S128x128_S128x128_1_0),
    binary main_v74 main_v75 main_v76 (fun l r => Host.dotGeneral dot_S100000x128_S128x128_S100000x128_1_0_0_1_n_n none l r),
    unary main_arg19 main_v77 (broadcastInDim S1x128 ![1] bcast_S128_S1x128_1),
    unary main_v77 main_v78 (broadcastInDim S100000x128 ![0, 1] bcast_S1x128_S100000x128_0_1),
    binary main_v76 main_v78 main_v79 addf,
    TRef.nullary main_call1.cst (constant S_ .f32 0x00000000#32),
    TRef.unary main_call1.cst main_call1.v0 (broadcastInDim S100000x128 ![] bcast_S_S100000x128),
    TRef.binary (.of main_v79) main_call1.v0 main_call1.v1 (cmpf .oge),
    TRef.nullary main_call1.cst_0 (constant S_ .f32 0x3C23D70A#32),
    TRef.unary main_call1.cst_0 main_call1.v2 (broadcastInDim S100000x128 ![] bcast_S_S100000x128),
    TRef.binary main_call1.v2 (.of main_v79) main_call1.v3 mulf,
    TRef.ternary main_call1.v1 (.of main_v79) main_call1.v3 main_call1.call0.v0 select,
    binary main_v73 main_v80 main_v81 addf ]

/-- @main's operations, in order. -/
abbrev ops : List (HloOp τ sig (Elt F)) := opsA ++ (opsB ++ opsC)

set_option maxRecDepth 8192 in
set_option maxHeartbeats 4000000 in
/-- @main's first window is the first stretch. -/
theorem part0_eq (c : Dev nD) : main_part0 (F := F) c = seq opsA := rfl

set_option maxRecDepth 8192 in
set_option maxHeartbeats 4000000 in
/-- @main's second window is the other two stretches in order: the rectifier's definition unfolded at its two calls and
    the sequencing reassociated. -/
theorem part1_eq (c : Dev nD) : main_part1 (F := F) c = seq (opsB ++ opsC) := by
  simp only [main_part1, fn_leaky_relu.body, fn_where.body, opsB, opsC, List.cons_append, List.nil_append, seq, bind_assoc, pure_bind]
  rfl

theorem main_eq (c : Dev nD) : main (F := F) c = seq ops := by
  show (main_part0 (F := F) c >>= fun _ => main_part1 (F := F) c) = _
  rw [part0_eq, part1_eq]
  exact (seq_append opsA (opsB ++ opsC)).symm

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..⟩

theorem opsB_sub : (opsB : List (HloOp τ sig (Elt F))).Forall fun op => op.bufs ⊆ tcRefs τ sig :=
  ⟨nullary_bufs_sub .., unary_bufs_sub .., unary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub ..,
    binary_bufs_sub .., binary_bufs_sub ..⟩

theorem opsC_sub : (opsC : List (HloOp τ sig (Elt F))).Forall fun op => op.bufs ⊆ tcRefs τ sig :=
  ⟨binary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub ..,
    binary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub ..,
    binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsA_sub op h, List.forall_iff_forall_mem.mp opsB_sub op h,
      List.forall_iff_forall_mem.mp opsC_sub op h]

/-- Every weakly fair execution of @main terminates, and every final state has each buffer at the fold of the three
    stretches, in order, over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsC (after opsB (after opsA (launchContents m c))) (b : DevRef τ sig) :=
  (θ_run defs _ _).mono (fun _ h c b => (h c b).trans (by rw [StableHlo.after_append, StableHlo.after_append]))
    (run_seq scopedRefs_eq scopedSems_eq defs main (fun _ => ops) main_eq (fun _ => ops_sub) m ρ)

end Cert.ReferenceIdeal.Line

end
-- ==== Proof.RefRead.lean ====
/-
  The reference's result as one term of its arguments.

  Reading the straight line of `RefOps` from its end: the result is the dense layer in the host's spelling (`denseTail`:
  both branches' `dot_general` with the transposed weights, the bias broadcast to one row and then over the rows, the
  rectifier as comparison and selection, the sum) of `ego`, `side` and the weight and bias arguments; `side` is the shared
  sparse chain (`Cert.Bridge.side`) of the sixteen sparse arguments; and the first two stretches write none of the
  arguments the last one reads.
-/
import proofs.«174703_j32117765440057_1_alg».proof.Proof.RefOps
import proofs.«174703_j32117765440057_1_alg».proof.Proof.SideChain

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The leaky rectifier in the host's spelling: the two constants broadcast from scalars. -/
def hostLrelu (x : (⟨S100000x128, .f32⟩ : BufTy).Contents (Elt F)) : (⟨S100000x128, .f32⟩ : BufTy).Contents (Elt F) :=
  select (cmpf .oge x (broadcastInDim S100000x128 ![] bcast_S_S100000x128 (constant S_ .f32 0x00000000#32))) x
    (mulf (broadcastInDim S100000x128 ![] bcast_S_S100000x128 (constant S_ .f32 0x3C23D70A#32)) x)

/-- One branch on the host: `lrelu (x · wᵀ + b)`, the bias broadcast to a row and then over the rows. -/
def hostBranch (x : (⟨S100000x128, .f32⟩ : BufTy).Contents (Elt F)) (w : (⟨S128x128, .f32⟩ : BufTy).Contents (Elt F))
    (b : (⟨S128, .f32⟩ : BufTy).Contents (Elt F)) : (⟨S100000x128, .f32⟩ : BufTy).Contents (Elt F) :=
  hostLrelu (addf
    (Host.dotGeneral dot_S100000x128_S128x128_S100000x128_1_0_0_1_n_n none x
      (transpose S128x128 [1, 0] w transposes_S128x128_S128x128_1_0))
    (broadcastInDim S100000x128 ![0, 1] bcast_S1x128_S100000x128_0_1 (broadcastInDim S1x128 ![1] bcast_S128_S1x128_1 b)))

/-- The dense layer on the host. -/
def denseTail (ego side : (⟨S100000x128, .f32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  addf (hostBranch (addf ego side) w1 b1) (hostBranch (mulf ego side) w2 b2)

set_option maxRecDepth 8192 in
set_option maxHeartbeats 40000000 in
/-- The last stretch, from any contents `W`: the result is the dense layer of what `W` holds at `ego`, `side`, the weights
    and the biases. -/
theorem tail_read (W : Valuation τ sig (Elt F)) :
    after opsC W (main_v81 : DevRef τ sig)
      = denseTail (W (main_arg0 : DevRef τ sig)) (W (main_v66 : DevRef τ sig)) (W (main_arg16 : DevRef τ sig))
          (W (main_arg17 : DevRef τ sig)) (W (main_arg18 : DevRef τ sig)) (W (main_arg19 : DevRef τ sig)) := by
  simp only [opsC]
  after_results_simp <;> rfl

set_option maxRecDepth 8192 in
set_option maxHeartbeats 40000000 in
/-- The first two stretches end with `side` at the shared chain of the sixteen sparse arguments. -/
theorem side_read (V : Valuation τ sig (Elt F)) :
    after opsB (after opsA V) (main_v66 : DevRef τ sig)
      = Cert.Bridge.side (V (main_arg0 : DevRef τ sig))
          (V (main_arg1 : DevRef τ sig))
          (V (main_arg2 : DevRef τ sig))
          (V (main_arg3 : DevRef τ sig))
          (V (main_arg4 : DevRef τ sig))
          (V (main_arg5 : DevRef τ sig))
          (V (main_arg6 : DevRef τ sig))
          (V (main_arg7 : DevRef τ sig))
          (V (main_arg8 : DevRef τ sig))
          (V (main_arg9 : DevRef τ sig))
          (V (main_arg10 : DevRef τ sig))
          (V (main_arg11 : DevRef τ sig))
          (V (main_arg12 : DevRef τ sig))
          (V (main_arg13 : DevRef τ sig))
          (V (main_arg14 : DevRef τ sig))
          (V (main_arg15 : DevRef τ sig)) := by
  rw [← StableHlo.after_append]
  simp only [opsA, opsB, List.cons_append, List.nil_append]
  after_results_simp <;> rfl

set_option maxRecDepth 8192 in
set_option maxHeartbeats 40000000 in
/-- The first two stretches do not write argument 0. -/
theorem mid_arg0 (V : Valuation τ sig (Elt F)) :
    after opsB (after opsA V) (main_arg0 : DevRef τ sig) = V (main_arg0 : DevRef τ sig) := by
  rw [← StableHlo.after_append]
  simp only [opsA, opsB, List.cons_append, List.nil_append]
  after_results_simp

set_option maxRecDepth 8192 in
set_option maxHeartbeats 40000000 in
/-- The first two stretches do not write argument 16. -/
theorem mid_arg16 (V : Valuation τ sig (Elt F)) :
    after opsB (after opsA V) (main_arg16 : DevRef τ sig) = V (main_arg16 : DevRef τ sig) := by
  rw [← StableHlo.after_append]
  simp only [opsA, opsB, List.cons_append, List.nil_append]
  after_results_simp

set_option maxRecDepth 8192 in
set_option maxHeartbeats 40000000 in
/-- The first two stretches do not write argument 17. -/
theorem mid_arg17 (V : Valuation τ sig (Elt F)) :
    after opsB (after opsA V) (main_arg17 : DevRef τ sig) = V (main_arg17 : DevRef τ sig) := by
  rw [← StableHlo.after_append]
  simp only [opsA, opsB, List.cons_append, List.nil_append]
  after_results_simp

set_option maxRecDepth 8192 in
set_option maxHeartbeats 40000000 in
/-- The first two stretches do not write argument 18. -/
theorem mid_arg18 (V : Valuation τ sig (Elt F)) :
    after opsB (after opsA V) (main_arg18 : DevRef τ sig) = V (main_arg18 : DevRef τ sig) := by
  rw [← StableHlo.after_append]
  simp only [opsA, opsB, List.cons_append, List.nil_append]
  after_results_simp

set_option maxRecDepth 8192 in
set_option maxHeartbeats 40000000 in
/-- The first two stretches do not write argument 19. -/
theorem mid_arg19 (V : Valuation τ sig (Elt F)) :
    after opsB (after opsA V) (main_arg19 : DevRef τ sig) = V (main_arg19 : DevRef τ sig) := by
  rw [← StableHlo.after_append]
  simp only [opsA, opsB, List.cons_append, List.nil_append]
  after_results_simp

/-- The whole line: the result is the dense layer of the arguments and their sparse sum. -/
theorem out_read (V : Valuation τ sig (Elt F)) :
    after opsC (after opsB (after opsA V)) (main_v81 : DevRef τ sig)
      = denseTail (V (main_arg0 : DevRef τ sig))
          (Cert.Bridge.side (V (main_arg0 : DevRef τ sig))
            (V (main_arg1 : DevRef τ sig))
            (V (main_arg2 : DevRef τ sig))
            (V (main_arg3 : DevRef τ sig))
            (V (main_arg4 : DevRef τ sig))
            (V (main_arg5 : DevRef τ sig))
            (V (main_arg6 : DevRef τ sig))
            (V (main_arg7 : DevRef τ sig))
            (V (main_arg8 : DevRef τ sig))
            (V (main_arg9 : DevRef τ sig))
            (V (main_arg10 : DevRef τ sig))
            (V (main_arg11 : DevRef τ sig))
            (V (main_arg12 : DevRef τ sig))
            (V (main_arg13 : DevRef τ sig))
            (V (main_arg14 : DevRef τ sig))
            (V (main_arg15 : DevRef τ sig)))
          (V (main_arg16 : DevRef τ sig)) (V (main_arg17 : DevRef τ sig)) (V (main_arg18 : DevRef τ sig)) (V (main_arg19 : DevRef τ sig)) := by
  rw [tail_read, mid_arg0, side_read, mid_arg16, mid_arg17, mid_arg18, mid_arg19]

end Cert.ReferenceIdeal.Line

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«174703_j32117765440057_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.RefIsSpec.lean ====
/-
  The reference's dense layer, in the host's spelling, is the layer of the specification.

  On the extended reals the host's `dot_general` over plain dimension numbers is the plain matrix product, its sum with
  a vector broadcast to a row and then over the rows adds that vector — reshaped to one row — to every row, and a
  constant broadcast from a scalar is the splat of its value: so each host branch is a branch of the specification and the
  whole tail is the layer, with the weights transposed and the biases as single rows.
-/
import proofs.«174703_j32117765440057_1_alg».proof.Proof.RefRead
import proofs.«174703_j32117765440057_1_alg».proof.Proof.Result
import proofs.«174703_j32117765440057_1_alg».proof.Proof.LibRowBiasHost

noncomputable section

namespace Cert.ReferenceIdeal.Line

open Cert.ReferenceIdeal Cert.ReferenceIdeal.Gen Idealize.ShloMosaic Idealize.ShloMosaic.TcCoe Idealize.SL.Sem Idealize.ShloMosaic.StableHlo
open Cert.Bridge Cert.LibPlainDot Cert.LibRowBias

/-- The host's rectifier is the specification's. -/
theorem hostLrelu_eq (x : FVec Ideal S100000x128 .f32) :
    hostLrelu (F := Ideal) x = lrelu (s := ⟨2, ![100000, 128]⟩) x := rfl

/-- A host branch is a branch of the specification on the transposed weights and the bias as one row. -/
theorem hostBranch_eq (x : FVec Ideal S100000x128 .f32) (w : FVec Ideal S128x128 .f32) (b : FVec Ideal S128 .f32)
    (hc : (⟨1, ![128]⟩ : Shape).ShapeCasts ⟨2, ![1, 128]⟩) :
    hostBranch (F := Ideal) x w b
      = branch (M := 100000) x (transpose S128x128 [1, 0] w transposes_S128x128_S128x128_1_0) (shapeCast ⟨2, ![1, 128]⟩ b hc) := by
  unfold hostBranch branch
  rw [hostLrelu_eq]
  refine congrArg (lrelu (s := ⟨2, ![100000, 128]⟩)) ?_
  have hd : Host.dotGeneral dot_S100000x128_S128x128_S100000x128_1_0_0_1_n_n none x
        (transpose S128x128 [1, 0] w transposes_S128x128_S128x128_1_0)
      = rowsTimes (M := 100000) (K := 128) (N := 128) x (transpose S128x128 [1, 0] w transposes_S128x128_S128x128_1_0) :=
    dotGeneral_plain (M := 100000) (K := 128) (N := 128) none .single x
      (transpose S128x128 [1, 0] w transposes_S128x128_S128x128_1_0)
  rw [hd]
  exact addf_bcastRow (M := 100000) (N := 128) _ b bcast_S128_S1x128_1 bcast_S1x128_S100000x128_0_1 hc

/-- The host's dense layer is the layer of the specification. -/
theorem denseTail_eq (ego side : FVec Ideal S100000x128 .f32) (w1 : FVec Ideal S128x128 .f32) (b1 : FVec Ideal S128 .f32)
    (w2 : FVec Ideal S128x128 .f32) (b2 : FVec Ideal S128 .f32) (hc : (⟨1, ![128]⟩ : Shape).ShapeCasts ⟨2, ![1, 128]⟩) :
    denseTail (F := Ideal) ego side w1 b1 w2 b2
      = layer (M := 100000) ego side (transpose S128x128 [1, 0] w1 transposes_S128x128_S128x128_1_0) (shapeCast ⟨2, ![1, 128]⟩ b1 hc)
          (transpose S128x128 [1, 0] w2 transposes_S128x128_S128x128_1_0) (shapeCast ⟨2, ![1, 128]⟩ b2 hc) := by
  unfold denseTail
  rw [hostBranch_eq _ _ _ hc, hostBranch_eq _ _ _ hc]
  rfl

/-- The whole line ends with the result buffer at `Cert.Bridge.result` of the twenty arguments. -/
theorem line_result (V : Valuation τ sig (Elt Ideal)) :
    after opsC (after opsB (after opsA V)) (main_v81 : DevRef τ sig)
      = result (V (main_arg0 : DevRef τ sig))
          (V (main_arg1 : DevRef τ sig))
          (V (main_arg2 : DevRef τ sig))
          (V (main_arg3 : DevRef τ sig))
          (V (main_arg4 : DevRef τ sig))
          (V (main_arg5 : DevRef τ sig))
          (V (main_arg6 : DevRef τ sig))
          (V (main_arg7 : DevRef τ sig))
          (V (main_arg8 : DevRef τ sig))
          (V (main_arg9 : DevRef τ sig))
          (V (main_arg10 : DevRef τ sig))
          (V (main_arg11 : DevRef τ sig))
          (V (main_arg12 : DevRef τ sig))
          (V (main_arg13 : DevRef τ sig))
          (V (main_arg14 : DevRef τ sig))
          (V (main_arg15 : DevRef τ sig))
          (V (main_arg16 : DevRef τ sig))
          (V (main_arg17 : DevRef τ sig))
          (V (main_arg18 : DevRef τ sig))
          (V (main_arg19 : DevRef τ sig)) := by
  rw [out_read, denseTail_eq _ _ _ _ _ _ Cert.KernelIdeal.Gen.shapeCasts_S128_S1x128]
  rfl

end Cert.ReferenceIdeal.Line

end
-- ==== Proof.RefKept.lean ====
/-
  The reference's line writes none of its twenty arguments: each ends as launched.
-/
import proofs.«174703_j32117765440057_1_alg».proof.Proof.RefOps

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The three stretches in order are one line. -/
theorem after_line (V : Valuation τ sig (Elt F)) :
    after opsC (after opsB (after opsA V)) = after (opsA ++ (opsB ++ opsC)) V := by
  rw [StableHlo.after_append, StableHlo.after_append]

set_option maxRecDepth 8192 in
set_option maxHeartbeats 40000000 in
theorem kept_arg0 (V : Valuation τ sig (Elt F)) :
    after opsC (after opsB (after opsA V)) (main_arg0 : DevRef τ sig) = V (main_arg0 : DevRef τ sig) := by
  rw [after_line]
  simp only [opsA, opsB, opsC, List.cons_append, List.nil_append]
  after_results_simp

set_option maxRecDepth 8192 in
set_option maxHeartbeats 40000000 in
theorem kept_arg1 (V : Valuation τ sig (Elt F)) :
    after opsC (after opsB (after opsA V)) (main_arg1 : DevRef τ sig) = V (main_arg1 : DevRef τ sig) := by
  rw [after_line]
  simp only [opsA, opsB, opsC, List.cons_append, List.nil_append]
  after_results_simp

set_option maxRecDepth 8192 in
set_option maxHeartbeats 40000000 in
theorem kept_arg2 (V : Valuation τ sig (Elt F)) :
    after opsC (after opsB (after opsA V)) (main_arg2 : DevRef τ sig) = V (main_arg2 : DevRef τ sig) := by
  rw [after_line]
  simp only [opsA, opsB, opsC, List.cons_append, List.nil_append]
  after_results_simp

set_option maxRecDepth 8192 in
set_option maxHeartbeats 40000000 in
theorem kept_arg3 (V : Valuation τ sig (Elt F)) :
    after opsC (after opsB (after opsA V)) (main_arg3 : DevRef τ sig) = V (main_arg3 : DevRef τ sig) := by
  rw [after_line]
  simp only [opsA, opsB, opsC, List.cons_append, List.nil_append]
  after_results_simp

set_option maxRecDepth 8192 in
set_option maxHeartbeats 40000000 in
theorem kept_arg4 (V : Valuation τ sig (Elt F)) :
    after opsC (after opsB (after opsA V)) (main_arg4 : DevRef τ sig) = V (main_arg4 : DevRef τ sig) := by
  rw [after_line]
  simp only [opsA, opsB, opsC, List.cons_append, List.nil_append]
  after_results_simp

set_option maxRecDepth 8192 in
set_option maxHeartbeats 40000000 in
theorem kept_arg5 (V : Valuation τ sig (Elt F)) :
    after opsC (after opsB (after opsA V)) (main_arg5 : DevRef τ sig) = V (main_arg5 : DevRef τ sig) := by
  rw [after_line]
  simp only [opsA, opsB, opsC, List.cons_append, List.nil_append]
  after_results_simp

set_option maxRecDepth 8192 in
set_option maxHeartbeats 40000000 in
theorem kept_arg6 (V : Valuation τ sig (Elt F)) :
    after opsC (after opsB (after opsA V)) (main_arg6 : DevRef τ sig) = V (main_arg6 : DevRef τ sig) := by
  rw [after_line]
  simp only [opsA, opsB, opsC, List.cons_append, List.nil_append]
  after_results_simp

set_option maxRecDepth 8192 in
set_option maxHeartbeats 40000000 in
theorem kept_arg7 (V : Valuation τ sig (Elt F)) :
    after opsC (after opsB (after opsA V)) (main_arg7 : DevRef τ sig) = V (main_arg7 : DevRef τ sig) := by
  rw [after_line]
  simp only [opsA, opsB, opsC, List.cons_append, List.nil_append]
  after_results_simp

set_option maxRecDepth 8192 in
set_option maxHeartbeats 40000000 in
theorem kept_arg8 (V : Valuation τ sig (Elt F)) :
    after opsC (after opsB (after opsA V)) (main_arg8 : DevRef τ sig) = V (main_arg8 : DevRef τ sig) := by
  rw [after_line]
  simp only [opsA, opsB, opsC, List.cons_append, List.nil_append]
  after_results_simp

set_option maxRecDepth 8192 in
set_option maxHeartbeats 40000000 in
theorem kept_arg9 (V : Valuation τ sig (Elt F)) :
    after opsC (after opsB (after opsA V)) (main_arg9 : DevRef τ sig) = V (main_arg9 : DevRef τ sig) := by
  rw [after_line]
  simp only [opsA, opsB, opsC, List.cons_append, List.nil_append]
  after_results_simp

set_option maxRecDepth 8192 in
set_option maxHeartbeats 40000000 in
theorem kept_arg10 (V : Valuation τ sig (Elt F)) :
    after opsC (after opsB (after opsA V)) (main_arg10 : DevRef τ sig) = V (main_arg10 : DevRef τ sig) := by
  rw [after_line]
  simp only [opsA, opsB, opsC, List.cons_append, List.nil_append]
  after_results_simp

set_option maxRecDepth 8192 in
set_option maxHeartbeats 40000000 in
theorem kept_arg11 (V : Valuation τ sig (Elt F)) :
    after opsC (after opsB (after opsA V)) (main_arg11 : DevRef τ sig) = V (main_arg11 : DevRef τ sig) := by
  rw [after_line]
  simp only [opsA, opsB, opsC, List.cons_append, List.nil_append]
  after_results_simp

set_option maxRecDepth 8192 in
set_option maxHeartbeats 40000000 in
theorem kept_arg12 (V : Valuation τ sig (Elt F)) :
    after opsC (after opsB (after opsA V)) (main_arg12 : DevRef τ sig) = V (main_arg12 : DevRef τ sig) := by
  rw [after_line]
  simp only [opsA, opsB, opsC, List.cons_append, List.nil_append]
  after_results_simp

set_option maxRecDepth 8192 in
set_option maxHeartbeats 40000000 in
theorem kept_arg13 (V : Valuation τ sig (Elt F)) :
    after opsC (after opsB (after opsA V)) (main_arg13 : DevRef τ sig) = V (main_arg13 : DevRef τ sig) := by
  rw [after_line]
  simp only [opsA, opsB, opsC, List.cons_append, List.nil_append]
  after_results_simp

set_option maxRecDepth 8192 in
set_option maxHeartbeats 40000000 in
theorem kept_arg14 (V : Valuation τ sig (Elt F)) :
    after opsC (after opsB (after opsA V)) (main_arg14 : DevRef τ sig) = V (main_arg14 : DevRef τ sig) := by
  rw [after_line]
  simp only [opsA, opsB, opsC, List.cons_append, List.nil_append]
  after_results_simp

set_option maxRecDepth 8192 in
set_option maxHeartbeats 40000000 in
theorem kept_arg15 (V : Valuation τ sig (Elt F)) :
    after opsC (after opsB (after opsA V)) (main_arg15 : DevRef τ sig) = V (main_arg15 : DevRef τ sig) := by
  rw [after_line]
  simp only [opsA, opsB, opsC, List.cons_append, List.nil_append]
  after_results_simp

set_option maxRecDepth 8192 in
set_option maxHeartbeats 40000000 in
theorem kept_arg16 (V : Valuation τ sig (Elt F)) :
    after opsC (after opsB (after opsA V)) (main_arg16 : DevRef τ sig) = V (main_arg16 : DevRef τ sig) := by
  rw [after_line]
  simp only [opsA, opsB, opsC, List.cons_append, List.nil_append]
  after_results_simp

set_option maxRecDepth 8192 in
set_option maxHeartbeats 40000000 in
theorem kept_arg17 (V : Valuation τ sig (Elt F)) :
    after opsC (after opsB (after opsA V)) (main_arg17 : DevRef τ sig) = V (main_arg17 : DevRef τ sig) := by
  rw [after_line]
  simp only [opsA, opsB, opsC, List.cons_append, List.nil_append]
  after_results_simp

set_option maxRecDepth 8192 in
set_option maxHeartbeats 40000000 in
theorem kept_arg18 (V : Valuation τ sig (Elt F)) :
    after opsC (after opsB (after opsA V)) (main_arg18 : DevRef τ sig) = V (main_arg18 : DevRef τ sig) := by
  rw [after_line]
  simp only [opsA, opsB, opsC, List.cons_append, List.nil_append]
  after_results_simp

set_option maxRecDepth 8192 in
set_option maxHeartbeats 40000000 in
theorem kept_arg19 (V : Valuation τ sig (Elt F)) :
    after opsC (after opsB (after opsA V)) (main_arg19 : DevRef τ sig) = V (main_arg19 : DevRef τ sig) := by
  rw [after_line]
  simp only [opsA, opsB, opsC, List.cons_append, List.nil_append]
  after_results_simp

end Cert.ReferenceIdeal.Line

end
-- ==== Proof.RefValue.lean ====
/-
  The reference's run with its result named: the layer of the launch arguments, which the run leaves unchanged.
-/
import proofs.«174703_j32117765440057_1_alg».proof.Proof.RefIsSpec
import proofs.«174703_j32117765440057_1_alg».proof.Proof.RefKept

noncomputable section

namespace Cert.ReferenceIdeal.Line

open Cert.ReferenceIdeal Cert.ReferenceIdeal.Gen Idealize.ShloMosaic Idealize.ShloMosaic.TcCoe Idealize.SL.Sem Idealize.ShloMosaic.StableHlo
open Cert.Bridge

/-- Every weakly fair execution of the reference's @main terminates with the result at `result` of the launch arguments
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81)
        = result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v81).trans (line_result (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c)),
      (h c main_arg14).trans (kept_arg14 (launchContents m c)),
      (h c main_arg15).trans (kept_arg15 (launchContents m c)),
      (h c main_arg16).trans (kept_arg16 (launchContents m c)),
      (h c main_arg17).trans (kept_arg17 (launchContents m c)),
      (h c main_arg18).trans (kept_arg18 (launchContents m c)),
      (h c main_arg19).trans (kept_arg19 (launchContents m c))⟩)
    (run_line m ρ)

end Cert.ReferenceIdeal.Line

end
-- ==== Proof.lean ====
/-
  The certificate: the kernel (a sparse message-passing step on the host followed by a two-branch dense layer computed
  4000 rows per grid point on the TensorCore) against its reference (the same step and the same layer, all on the host).

  With `side = A·ego + P2·(P1·ego) + L2·(L1·ego)` both programs compute
      lrelu ((ego + side)·W1ᵀ + b1) + lrelu ((ego ∘ side)·W2ᵀ + b2),      lrelu t = t if t ≥ 0, else f32(1/100)·t.
  On the extended reals the kernel's roundings to a shorter format are the identity, its matrix-unit product into a zero
  accumulator and the host's `dot_general` are one plain matrix product, both add the bias to every row, and both spell
  the rectifier as a comparison and a selection with the same two constants; an entry of the layer depends on its own row
  of `ego` and `side` only, so the kernel's 25 row blocks are the reference's whole array. The sparse chain is the same
  host operations in both programs and is carried as one function, never opened. No law used needs finiteness: the
  precondition is not opened.

  The frames of the two kernel programs are the generated ones; the reference's frame is its run with the result
  dropped; no rewrite was applied by the ideal pass, so `preserves` is `True`.
-/
import proofs.«174703_j32117765440057_1_alg».proof.Defs
import proofs.«174703_j32117765440057_1_alg».proof.Proof.Gen.Kernel
import proofs.«174703_j32117765440057_1_alg».proof.Proof.Gen.Kernel.Skeleton
import proofs.«174703_j32117765440057_1_alg».proof.Proof.Gen.Kernel.Launch
import proofs.«174703_j32117765440057_1_alg».proof.Proof.Gen.Kernel.Points
import proofs.«174703_j32117765440057_1_alg».proof.Proof.Gen.Kernel.Frame
import proofs.«174703_j32117765440057_1_alg».proof.Proof.Gen.KernelIdeal
import proofs.«174703_j32117765440057_1_alg».proof.Proof.Gen.KernelIdeal.Skeleton
import proofs.«174703_j32117765440057_1_alg».proof.Proof.Gen.KernelIdeal.Launch
import proofs.«174703_j32117765440057_1_alg».proof.Proof.Gen.KernelIdeal.Points
import proofs.«174703_j32117765440057_1_alg».proof.Proof.Gen.KernelIdeal.Frame
import proofs.«174703_j32117765440057_1_alg».proof.Proof.Gen.KernelIdeal.Value
import proofs.«174703_j32117765440057_1_alg».proof.Proof.Gen.ReferenceIdeal
import proofs.«174703_j32117765440057_1_alg».proof.Proof.Gen.Pre_finite_inputs
import proofs.«174703_j32117765440057_1_alg».proof.Proof.KernelValue
import proofs.«174703_j32117765440057_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Line.run m ρ)

theorem preserves : Cert.preserves_Kernel_KernelIdeal := trivial

/-- Both runs end with the result at `Cert.Bridge.result` of their own launch arguments; the arguments agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Line.run m' ρ')
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
